-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2048x256 : Shape := ⟨2, ![2048, 256]⟩
abbrev S1024x256 : Shape := ⟨2, ![1024, 256]⟩
abbrev S2048x1 : Shape := ⟨2, ![2048, 1]⟩
abbrev S1x1024 : Shape := ⟨2, ![1, 1024]⟩
abbrev S2048x1024 : Shape := ⟨2, ![2048, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x256, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x256, .bf16⟩
  | .hbm, ⟨12, _⟩ => ⟨S8192x256, .bf16⟩
  | .hbm, ⟨13, _⟩ => ⟨S8192x8192, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x8192.size a
  hwx0_4 : ∀ i : grid0.Coords, EltTy.bits .f32 = 32 ∨ (Rect.block (s := S8192x8192) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v7) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S256x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.RbfSpec.lean ====
/-
  The radial-basis-function kernel matrix through the expansion ‖x − y‖² = ‖x‖² + ‖y‖² − 2 x·y, on the extended
  reals: for 8192 points x_p and 8192 points y_q of dimension 256,
      K(p, q) = exp (−1 · max ((‖x_p‖² + ‖y_q‖²) − 2 · Σ_k x(p,k) · y(q,k), 0)),
  where ‖x_p‖² = 0 + Σ_k x(p,k) · x(p,k). The three scalars are kept as single-precision words (−1 is BF800000, 2 is
  40000000, 0 is 00000000): both programs carry the same words, so they are never evaluated. Nothing here mentions a
  program.
-/
import Idealize.ShloMosaic.PureOps.Ideal
import Idealize.ShloMosaic.Lib.ValueIdx

open scoped BigOperators

noncomputable section

namespace Cert.Rbf

open Idealize.ShloMosaic Idealize.ShloMosaic.ValueIdx

/-- The squared norm of row p of an 8192×256 array, summed from the zero word. -/
def sqNorm (x : (⟨2, ![8192, 256]⟩ : Shape).Idx → EReal) (p : Fin 8192) : EReal :=
  Ideal.ofBits .f32 0x00000000#32 + ∑ k : Fin 256, x (ix2 p k) * x (ix2 p k)

/-- One entry of the kernel matrix from a per-row term s, a per-column term u and the inner product d:
    exp (−1 · max ((s + u) − 2 · d, 0)). -/
def entryOf (s u d : EReal) : EReal :=
  Ideal.exp (Ideal.ofBits .f32 0xBF800000#32 *
    max ((s + u) - Ideal.ofBits .f32 0x40000000#32 * d) (Ideal.ofBits .f32 0x00000000#32))

/-- The inner product of row p of x with row q of y. -/
def inner (x y : (⟨2, ![8192, 256]⟩ : Shape).Idx → EReal) (p q : Fin 8192) : EReal :=
  ∑ k : Fin 256, x (ix2 p k) * y (ix2 q k)

/-- The kernel matrix from the two point arrays and ANY column a of per-row terms and row b of per-column terms. -/
def rbfOf (x y : (⟨2, ![8192, 256]⟩ : Shape).Idx → EReal) (a : (⟨2, ![8192, 1]⟩ : Shape).Idx → EReal)
    (b : (⟨2, ![1, 8192]⟩ : Shape).Idx → EReal) : (⟨2, ![8192, 8192]⟩ : Shape).Idx → EReal := fun i =>
  entryOf (a (ix2 (i 0) 0)) (b (ix2 0 (i 1))) (inner x y (i 0) (i 1))

/-- The kernel matrix of the two point arrays: the per-row and per-column terms are the squared norms. -/
def rbf (x y : (⟨2, ![8192, 256]⟩ : Shape).Idx → EReal) : (⟨2, ![8192, 8192]⟩ : Shape).Idx → EReal := fun i =>
  entryOf (sqNorm x (i 0)) (sqNorm y (i 1)) (inner x y (i 0) (i 1))

theorem rbfOf_apply (x y : (⟨2, ![8192, 256]⟩ : Shape).Idx → EReal) (a : (⟨2, ![8192, 1]⟩ : Shape).Idx → EReal)
    (b : (⟨2, ![1, 8192]⟩ : Shape).Idx → EReal) (p q : Fin 8192) :
    rbfOf x y a b (ix2 p q) = entryOf (a (ix2 p 0)) (b (ix2 0 q)) (inner x y p q) := rfl

theorem rbf_apply (x y : (⟨2, ![8192, 256]⟩ : Shape).Idx → EReal) (p q : Fin 8192) :
    rbf x y (ix2 p q) = entryOf (sqNorm x p) (sqNorm y q) (inner x y p q) := rfl

/-- With the squared norms as the per-row and per-column terms, `rbfOf` is `rbf`. -/
theorem rbfOf_eq_rbf (x y : (⟨2, ![8192, 256]⟩ : Shape).Idx → EReal) (a : (⟨2, ![8192, 1]⟩ : Shape).Idx → EReal)
    (b : (⟨2, ![1, 8192]⟩ : Shape).Idx → EReal) (ha : ∀ p : Fin 8192, a (ix2 p 0) = sqNorm x p)
    (hb : ∀ q : Fin 8192, b (ix2 0 q) = sqNorm y q) : rbfOf x y a b = rbf x y := by
  funext i
  obtain ⟨p, q, rfl⟩ : ∃ (p q : Fin 8192), i = ix2 p q := ⟨i 0, i 1, eq_ix2 i⟩
  rw [rbfOf_apply, rbf_apply, ha, hb]

end Cert.Rbf

end
-- ==== Proof.RbfBody.lean ====
/-
  The kernel body's one stored value at an index, on the extended reals: from a 2048×256 block of x rows, a 1024×256
  block of y rows, a 2048×1 column of per-row terms and a 1×1024 row of per-column terms, entry (p, q) of the stored
  2048×1024 tile is exp (−1 · max ((column(p) + row(q)) − 2 · Σ_k x(p,k) · y(q,k), 0)): the matrix product into a zero
  accumulator contracts both blocks along their columns, the column is repeated across the tile's columns and the row
  down its rows, and everything else is entry by entry.
-/
import proofs.«134240_j65481071399682_2_alg».proof.Proof.Gen.KernelIdeal.Skeleton
import proofs.«134240_j65481071399682_2_alg».proof.Proof.LibBlockReads
import proofs.«134240_j65481071399682_2_alg».proof.Proof.LibRowReductions
import proofs.«134240_j65481071399682_2_alg».proof.Proof.RbfSpec
import Idealize.ShloMosaic.Lib.Pipeline.Value
import Idealize.ShloMosaic.Lib.ValueIdx

open scoped BigOperators

noncomputable section

namespace Cert.Rbf

open Cert.KernelIdeal Cert.KernelIdeal.Gen Idealize.ShloMosaic Idealize.ShloMosaic.ValueIdx

/-- Entry (p, q) of the tile the body stores. -/
theorem body_apply (v0 : Vec Ideal S2048x256 .bf16) (v2 : Vec Ideal S1024x256 .bf16) (v5 : Vec Ideal S2048x1 .f32)
    (v7 : Vec Ideal S1x1024 .f32) (p : Fin 2048) (q : Fin 1024) :
    k0_pay1 v0 v2 v5 v7 (ix2 p q)
      = entryOf (v5 (ix2 p 0)) (v7 (ix2 0 q)) (∑ k : Fin 256, v0 (ix2 p k) * v2 (ix2 q k)) := by
  unfold k0_pay1 entryOf
  show Ideal.exp (_ * max ((broadcastTo S2048x1024 (shapeCast S2048x1 v5 _) _ (ix2 p q)
      + broadcastTo S2048x1024 (shapeCast S1x1024 v7 _) _ (ix2 p q))
      - _ * matmul (F := Ideal) dot_S2048x256_S1024x256_S2048x1024_1_1_0_0_n_n none (shapeCast S2048x256 v0 _) (shapeCast S1024x256 v2 _)
          (constant (F := Ideal) S2048x1024 .f32 0x00000000#32) (ix2 p q)) _) = _
  rw [shapeCast_self, shapeCast_self, shapeCast_self, shapeCast_self,
    Cert.Lib.RowReductions.broadcast_col_apply, Cert.Lib.BlockReads.broadcast_row_apply,
    Cert.Lib.BlockReads.matmul_zero_cols_apply _ rfl rfl rfl rfl rfl rfl]
  rfl

end Cert.Rbf

end
-- ==== Proof.RbfBlocks.lean ====
/-
  From tiles to the array. The grid has 4 × 8 points; point (i, j) reads rows 2048·i … 2048·i + 2047 of x and of
  the column of per-row terms, rows 1024·j … 1024·j + 1023 of y and the same stretch of the row of per-column terms,
  and writes tile (i, j) — 2048 rows by 1024 columns — of the result. So what a point writes back is its tile of the
  kernel matrix of the four operand arrays, and the 32 tiles cover the 8192×8192 result.
-/
import proofs.«134240_j65481071399682_2_alg».proof.Proof.Gen.KernelIdeal.Value
import proofs.«134240_j65481071399682_2_alg».proof.Proof.RbfBody
import proofs.«134240_j65481071399682_2_alg».proof.Proof.RbfSpec
import Idealize.ShloMosaic.Lib.Pipeline.Value
import Idealize.ShloMosaic.Lib.ValueIdx

open scoped BigOperators

noncomputable section

namespace Cert.Rbf

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The five index maps over the 32 grid points: x's block and the per-row terms' block sit at the tile's row index,
    y's block and the per-column terms' block at the tile's column index, every other block coordinate is 0, and the
    tile's indices range over 4 × 8. -/
theorem tile_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 3 ∧ win0_4.index t (1 : Fin 2) ≤ 7 :=
  (by decide +kernel : ∀ t : Fin grid0.N, _)

/-- Every tile is some grid point's. -/
theorem tile_onto : ∀ (q0 : Fin 4) (q1 : Fin 8), ∃ t : Fin cfg0.N, win0_4.index t = ![q0.val, q1.val] :=
  (by decide +kernel : ∀ (q0 : Fin 4) (q1 : Fin 8), ∃ t : Fin grid0.N, win0_4.index t = ![q0.val, q1.val])

/-! ## The four input blocks at a point, read off their arrays -/

/-- Row p of x's block at point t is row P of x's array, P = 2048 · (the tile's row index) + p. -/
theorem xblock_apply (c : Dev nD) (t : Fin cfg0.N) (p : Fin 2048) (k : Fin 256) (P : Fin 8192)
    (hP : P.val = win0_4.index t (0 : Fin 2) * 2048 + p.val) :
    (iblk m c 0 t : Vec Ideal S2048x256 .bf16) (ix2 p k) = (V m c main_v7 : S8192x256.Idx → EReal) (ix2 P k) := by
  obtain ⟨e0, e1, -⟩ := tile_indices t
  unfold iblk
  rw [View.read_apply]
  show V m c main_v7 _ = V m c main_v7 _
  congr 1
  funext a
  apply Fin.ext
  match a with
  | ⟨0, _⟩ => show win0_0.index t (0 : Fin 2) * 2048 + 1 * p.val = P.val; omega
  | ⟨1, _⟩ => show win0_0.index t (1 : Fin 2) * 256 + 1 * k.val = k.val; omega

/-- Row q of y's block at point t is row Q of y's array, Q = 1024 · (the tile's column index) + q. -/
theorem yblock_apply (c : Dev nD) (t : Fin cfg0.N) (q : Fin 1024) (k : Fin 256) (Q : Fin 8192)
    (hQ : Q.val = win0_4.index t (1 : Fin 2) * 1024 + q.val) :
    (iblk m c 1 t : Vec Ideal S1024x256 .bf16) (ix2 q k) = (V m c main_v8 : S8192x256.Idx → EReal) (ix2 Q k) := by
  obtain ⟨-, -, e2, e3, -⟩ := tile_indices t
  unfold iblk
  rw [View.read_apply]
  show V m c main_v8 _ = V m c main_v8 _
  congr 1
  funext a
  apply Fin.ext
  match a with
  | ⟨0, _⟩ => show win0_1.index t (0 : Fin 2) * 1024 + 1 * q.val = Q.val; omega
  | ⟨1, _⟩ => show win0_1.index t (1 : Fin 2) * 256 + 1 * k.val = k.val; omega

/-- Entry p of the per-row terms' block at point t is entry P of their column. -/
theorem colblock_apply (c : Dev nD) (t : Fin cfg0.N) (p : Fin 2048) (P : Fin 8192)
    (hP : P.val = win0_4.index t (0 : Fin 2) * 2048 + p.val) :
    (iblk m c 2 t : Vec Ideal S2048x1 .f32) (ix2 p 0) = (V m c main_v2 : S8192x1.Idx → EReal) (ix2 P 0) := by
  obtain ⟨-, -, -, -, e4, e5, -⟩ := tile_indices t
  unfold iblk
  rw [View.read_apply]
  show V m c main_v2 _ = V m c main_v2 _
  congr 1
  funext a
  apply Fin.ext
  match a with
  | ⟨0, _⟩ => show win0_2.index t (0 : Fin 2) * 2048 + 1 * p.val = P.val; omega
  | ⟨1, _⟩ => show win0_2.index t (1 : Fin 2) * 1 + 1 * 0 = 0; omega

/-- Entry q of the per-column terms' block at point t is entry Q of their row. -/
theorem rowblock_apply (c : Dev nD) (t : Fin cfg0.N) (q : Fin 1024) (Q : Fin 8192)
    (hQ : Q.val = win0_4.index t (1 : Fin 2) * 1024 + q.val) :
    (iblk m c 3 t : Vec Ideal S1x1024 .f32) (ix2 0 q) = (V m c main_v6 : S1x8192.Idx → EReal) (ix2 0 Q) := by
  obtain ⟨-, -, -, -, -, -, e6, e7, -⟩ := tile_indices t
  unfold iblk
  rw [View.read_apply]
  show V m c main_v6 _ = V m c main_v6 _
  congr 1
  funext a
  apply Fin.ext
  match a with
  | ⟨0, _⟩ => show win0_3.index t (0 : Fin 2) * 1 + 1 * 0 = 0; omega
  | ⟨1, _⟩ => show win0_3.index t (1 : Fin 2) * 1024 + 1 * q.val = Q.val; omega

/-! ## What a point writes back -/

/-- Point t writes back tile t of the kernel matrix of the four operand arrays as the grid finds them. -/
theorem flushed_eq (c : Dev nD) (t : Fin cfg0.N) :
    (dats m 0 c).flushed 4 t = ((cfg0.win 4).blk t).view.read (Elt Ideal)
      (rbfOf (V m c main_v7) (V m c main_v8) (V m c main_v2) (V m c main_v6)) := by
  rw [Cert.KernelIdeal.Value.flushed4]
  unfold out0_4
  rw [View.canon_unit_zero zero_offsets]
  simp only [View.ld_unit_zero (S := S2048x256) zero_offsets, View.ld_unit_zero (S := S1024x256) zero_offsets,
    View.ld_unit_zero (S := S2048x1) zero_offsets, View.ld_unit_zero (S := S1x1024) zero_offsets]
  funext j
  obtain ⟨p, q, rfl⟩ : ∃ (p : Fin 2048) (q : Fin 1024), j = ix2 p q := ⟨j 0, j 1, eq_ix2 j⟩
  obtain ⟨-, -, -, -, -, -, -, -, b0, b1⟩ := tile_indices t
  have hp := p.isLt
  have hq := q.isLt
  obtain ⟨P, hP⟩ : ∃ P : Fin 8192, P.val = win0_4.index t (0 : Fin 2) * 2048 + p.val := ⟨⟨_, by omega⟩, rfl⟩
  obtain ⟨Q, hQ⟩ : ∃ Q : Fin 8192, Q.val = win0_4.index t (1 : Fin 2) * 1024 + q.val := ⟨⟨_, by omega⟩, rfl⟩
  have hemb : ((cfg0.win 4).blk t).view.emb (ix2 p q) = ix2 P Q := by
    funext a
    apply Fin.ext
    match a with
    | ⟨0, _⟩ => show win0_4.index t (0 : Fin 2) * 2048 + 1 * p.val = P.val; omega
    | ⟨1, _⟩ => show win0_4.index t (1 : Fin 2) * 1024 + 1 * q.val = Q.val; omega
  show k0_pay1 (iblk m c 0 t) (iblk m c 1 t) (iblk m c 2 t) (iblk m c 3 t) (ix2 p q)
    = rbfOf (V m c main_v7) (V m c main_v8) (V m c main_v2) (V m c main_v6) (((cfg0.win 4).blk t).view.emb (ix2 p q))
  refine (body_apply (iblk m c 0 t) (iblk m c 1 t) (iblk m c 2 t) (iblk m c 3 t) p q).trans ?_
  rw [hemb, rbfOf_apply, colblock_apply m c t p P hP, rowblock_apply m c t q Q hQ]
  unfold inner
  exact congrArg _ (Finset.sum_congr rfl fun k _ => by rw [xblock_apply m c t p k P hP, yblock_apply m c t q k Q hQ])

/-! ## The tiles cover the result -/

/-- An index of the result is in point t's tile iff each coordinate is in the tile's range on its axis. -/
theorem mem_tile (t : Fin cfg0.N) (i : S8192x8192.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v9).slice (win0_4.rect t)).set ↔ _
  rw [View.set_slice_whole, Rect.mem_set_unit]
  exact Iff.rfl

/-- Entry (r, s) of the result lies in the tile of the point with indices (r / 2048, s / 1024). -/
theorem tiles_cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := tile_onto ⟨(i 0).val / 2048, by omega⟩ ⟨(i 1).val / 1024, by omega⟩
  have q0 : win0_4.index t (0 : Fin 2) = (i 0).val / 2048 := congrFun ht 0
  have q1 : win0_4.index t (1 : Fin 2) = (i 1).val / 1024 := congrFun ht 1
  refine ⟨t, flush0_4 t, ?_⟩
  rw [mem_tile]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 1024 ≤ (i 1).val ∧ (i 1).val < win0_4.index t (1 : Fin 2) * 1024 + 1024
    omega

end Cert.Rbf

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«134240_j65481071399682_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.RbfHost.lean ====
/-
  What the kernel's four operand arrays hold when its grid starts, on the extended reals: the two half-precision
  copies are x and y themselves (a change of float format is the identity), the column of per-row terms holds the
  squared norms of x's rows, and the row of per-column terms — the column of y's squared norms re-laid as a row —
  holds the squared norms of y's rows.
-/
import proofs.«134240_j65481071399682_2_alg».proof.Proof.Gen.KernelIdeal.Frame
import proofs.«134240_j65481071399682_2_alg».proof.Proof.LibRowReductions
import proofs.«134240_j65481071399682_2_alg».proof.Proof.LibHostRows
import proofs.«134240_j65481071399682_2_alg».proof.Proof.RbfSpec
import Idealize.ShloMosaic.Lib.StableHlo.Run
import Idealize.ShloMosaic.Lib.Pipeline.Value
import Idealize.ShloMosaic.Lib.ValueIdx

open scoped BigOperators

noncomputable section

namespace Cert.Rbf

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The half-precision copy of x is x. -/
theorem V_xb (c : Dev nD) :
    (V m c main_v7 : S8192x256.Idx → EReal) = (m ((c : Thread nD τ).loc main_arg0) : S8192x256.Idx → EReal) := by
  have e : (V m c main_v7 : S8192x256.Idx → EReal)
      = (truncf (F := Ideal) .bf16 (m ((c : Thread nD τ).loc main_arg0) : FVec Ideal S8192x256 .f32) bitsLt_bf16_f32 : FVec Ideal S8192x256 .bf16) := by
    dsimp only [Gen.V, Gen.hostOps0]; after_results
  rw [e]; rfl

/-- The half-precision copy of y is y. -/
theorem V_yb (c : Dev nD) :
    (V m c main_v8 : S8192x256.Idx → EReal) = (m ((c : Thread nD τ).loc main_arg1) : S8192x256.Idx → EReal) := by
  have e : (V m c main_v8 : S8192x256.Idx → EReal)
      = (truncf (F := Ideal) .bf16 (m ((c : Thread nD τ).loc main_arg1) : FVec Ideal S8192x256 .f32) bitsLt_bf16_f32 : FVec Ideal S8192x256 .bf16) := by
    dsimp only [Gen.V, Gen.hostOps0]; after_results
  rw [e]; rfl

/-- Entry (p, 0) of the column of per-row terms is the squared norm of row p of x. -/
theorem V_x2 (c : Dev nD) (p : Fin 8192) :
    (V m c main_v2 : S8192x1.Idx → EReal) (ix2 p 0) = sqNorm (m ((c : Thread nD τ).loc main_arg0)) p := by
  have e : (V m c main_v2 : S8192x1.Idx → EReal)
      = broadcastInDim S8192x1 ![0] bcast_S8192_S8192x1_0
          (Host.reduceAdd (mulf (m ((c : Thread nD τ).loc main_arg0) : FVec Ideal S8192x256 .f32) (m ((c : Thread nD τ).loc main_arg0)))
            (constant (F := Ideal) S_ .f32 0x00000000#32) reducesTo_S8192x256_S8192_d1 h_S_) := by
    dsimp only [Gen.V, Gen.hostOps0]; after_results
  rw [e, Cert.Lib.RowReductions.bcastInDim_col_apply, Cert.Lib.HostRows.host_rowsum_apply]
  rfl

/-- Entry (0, q) of the row of per-column terms is the squared norm of row q of y: the 8192×1 column re-laid as a
    1×8192 row keeps its entries in order. -/
theorem V_y2 (c : Dev nD) (q : Fin 8192) :
    (V m c main_v6 : S1x8192.Idx → EReal) (ix2 0 q) = sqNorm (m ((c : Thread nD τ).loc main_arg1)) q := by
  have e : (V m c main_v6 : S1x8192.Idx → EReal)
      = shapeCast S1x8192 (broadcastInDim S8192x1 ![0] bcast_S8192_S8192x1_0
          (Host.reduceAdd (mulf (m ((c : Thread nD τ).loc main_arg1) : FVec Ideal S8192x256 .f32) (m ((c : Thread nD τ).loc main_arg1)))
            (constant (F := Ideal) S_ .f32 0x00000000#32) reducesTo_S8192x256_S8192_d1 h_S_)) shapeCasts_S8192x1_S1x8192 := by
    dsimp only [Gen.V, Gen.hostOps0]; after_results; rfl
  rw [e]
  refine (shapeCast_apply _ shapeCasts_S8192x1_S1x8192 (ix2 0 q) (ix2 q 0) ?_).trans ?_
  · rw [Shape.rowMajor_val_two, Shape.rowMajor_val_two]
    show q.val * 1 + 0 = 0 * 8192 + q.val
    omega
  · rw [Cert.Lib.RowReductions.bcastInDim_col_apply, Cert.Lib.HostRows.host_rowsum_apply]
    rfl

end Cert.Rbf

end
-- ==== Proof.RbfRun.lean ====
/-
  The kernel's run, read: the 32 tiles written back are the tiles of the kernel matrix of the four operand arrays,
  they cover the result, and those arrays hold x, y and their rows' squared norms — so the result array ends holding
  the kernel matrix of the two arguments, which stay unchanged.
-/
import proofs.«134240_j65481071399682_2_alg».proof.Proof.Gen.KernelIdeal.Value
import proofs.«134240_j65481071399682_2_alg».proof.Proof.RbfBlocks
import proofs.«134240_j65481071399682_2_alg».proof.Proof.RbfHost
import proofs.«134240_j65481071399682_2_alg».proof.Proof.RbfSpec
import Idealize.ShloMosaic.Lib.Pipeline.Value

noncomputable section

namespace Cert.Rbf

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result array after the run is the kernel matrix of the two arguments. -/
theorem result_eq (c : Dev nD) :
    (dats m 0 c).arrAt 4 cfg0.N = rbf (m ((c : Thread nD τ).loc main_arg0)) (m ((c : Thread nD τ).loc main_arg1)) := by
  have h := (dats m 0 c).arrAt_eq_of_cover 4
    (rbfOf (V m c main_v7) (V m c main_v8) (V m c main_v2) (V m c main_v6)) (fun t _ => flushed_eq m c t) tiles_cover
  rw [h, V_xb, V_yb]
  exact rbfOf_eq_rbf _ _ _ _ (V_x2 m c) (V_y2 m c)

/-- Every weakly fair execution of the kernel's program terminates with the result array at the kernel matrix of the
    arguments and the arguments unchanged. -/
theorem run : θ_run defs (onTc (τ := τ) (main (F := Ideal))) ⟨m, fun _ => 0, ρ⟩ fun r => ∀ c : Dev nD,
      r.2.mem ((c : Thread nD τ).loc main_v9) = rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.Rbf

end
-- ==== Proof.RbfReference.lean ====
/-
  The reference computes the same kernel matrix: entry (p, q) of its result is
  exp (−1 · max ((‖x_p‖² + ‖y_q‖²) − 2 · Σ_k x(p,k) · yᵀ(k,q), 0)), its squared norms summed from the zero word along
  each row, broadcast to a column and to a row and then over the whole matrix, and its product taken against the
  transpose of y, whose entry (k, q) is y(q, k).
-/
import proofs.«134240_j65481071399682_2_alg».proof.Proof.Gen.ReferenceIdeal.Read
import proofs.«134240_j65481071399682_2_alg».proof.Proof.RbfSpec
import Idealize.ShloMosaic.Lib.ValueIdx

open scoped BigOperators

noncomputable section

namespace Cert.Rbf

open Cert.ReferenceIdeal Cert.ReferenceIdeal.Gen Cert.ReferenceIdeal.Read Idealize.ShloMosaic Idealize.ShloMosaic.ValueIdx

/-- Entry (p, q) of the reference's result. -/
theorem reference_apply (x0 x1 : (⟨S8192x256, .f32⟩ : BufTy).Contents (Elt Ideal)) (p q : Fin 8192) :
    val_main_v18 (F := Ideal) x0 x1 (ix2 p q) = entryOf (sqNorm x0 p) (sqNorm x1 q) (inner x0 x1 p q) := by
  have i8 : idx_main_v8 (ix2 p q) = ix2 p 0 :=
    funext fun a => Fin.ext (by match a with | ⟨0, _⟩ => rfl | ⟨1, _⟩ => rfl)
  have i6 : idx_main_v6 (ix2 p 0) = ix1 p := funext fun a => Fin.ext (by match a with | ⟨0, _⟩ => rfl)
  have i9 : idx_main_v9 (ix2 p q) = ix2 0 q :=
    funext fun a => Fin.ext (by match a with | ⟨0, _⟩ => rfl | ⟨1, _⟩ => rfl)
  have i7 : idx_main_v7 (ix2 0 q) = ix1 q := funext fun a => Fin.ext (by match a with | ⟨0, _⟩ => rfl)
  have i1 : ∀ k : Fin 256, idx_main_v1 (ix1 p) k = ix2 p k := fun k =>
    funext fun a => Fin.ext (by match a with | ⟨0, _⟩ => rfl | ⟨1, _⟩ => rfl)
  have i3 : ∀ k : Fin 256, idx_main_v3 (ix1 q) k = ix2 q k := fun k =>
    funext fun a => Fin.ext (by match a with | ⟨0, _⟩ => rfl | ⟨1, _⟩ => rfl)
  have il : ∀ k : Fin 256, lidx_main_v5 (ix2 p q) k = ix2 p k := fun k =>
    funext fun a => Fin.ext (by match a with | ⟨0, _⟩ => rfl | ⟨1, _⟩ => rfl)
  have ir : ∀ k : Fin 256, idx_main_v4 (ridx_main_v5 (ix2 p q) k) = ix2 q k := fun k =>
    funext fun a => Fin.ext (by match a with | ⟨0, _⟩ => rfl | ⟨1, _⟩ => rfl)
  rw [val_main_v18_apply, val_main_v17_apply, val_main_v16_apply, val_main_cst_3_apply, val_main_v15_apply,
    val_main_v14_apply, val_main_cst_2_apply, val_main_v13_apply, val_main_v12_apply, val_main_v11_apply,
    val_main_cst_1_apply, val_main_v10_apply, val_main_v9_apply, val_main_v8_apply, val_main_v7_apply,
    val_main_v6_apply, val_main_v5_apply, i8, i6, i9, i7, val_main_v1_apply, val_main_v3_apply]
  simp only [val_main_v0_apply, val_main_v2_apply, val_main_v4_apply, val_main_cst_apply, val_main_cst_0_apply,
    i1, i3, il, ir]
  rfl

/-- The reference's result is the kernel matrix of its two arguments. -/
theorem reference_eq (x0 x1 : (⟨S8192x256, .f32⟩ : BufTy).Contents (Elt Ideal)) :
    val_main_v18 (F := Ideal) x0 x1 = rbf x0 x1 := by
  funext i
  obtain ⟨p, q, rfl⟩ : ∃ (p q : Fin 8192), i = ix2 p q := ⟨i 0, i 1, eq_ix2 i⟩
  rw [rbf_apply]
  exact reference_apply x0 x1 p q

end Cert.Rbf

end
-- ==== Proof.lean ====
/-
  The pairwise radial-basis-function kernel exp (−‖x_p − y_q‖²), computed through ‖x_p‖² + ‖y_q‖² − 2 x_p·y_q and
  clamped below at zero before the exponential, by a tiled kernel (4 × 8 tiles of 2048 × 1024 entries, the squared norms
  precomputed outside the grid and the inner products taken on half-precision copies) against a whole-array
  reference (the product taken against the transpose of y). On the extended reals a change of float format is the
  identity and the two programs apply the same operations in the same order to the same three scalar words, so both
  result arrays are one function of the arguments (Proof/RbfSpec.lean); no law of arithmetic beyond that is used, and the
  finiteness of the inputs is never opened. The kernel's side is Proof/RbfBody.lean (the stored tile at an index),
  Proof/RbfHost.lean (the operand arrays), Proof/RbfBlocks.lean (tiles to the array) and Proof/RbfRun.lean; the
  reference's is Proof/RbfReference.lean.
-/
import proofs.«134240_j65481071399682_2_alg».proof.Defs
import proofs.«134240_j65481071399682_2_alg».proof.Proof.Gen.Kernel
import proofs.«134240_j65481071399682_2_alg».proof.Proof.Gen.Kernel.Frame
import proofs.«134240_j65481071399682_2_alg».proof.Proof.Gen.KernelIdeal
import proofs.«134240_j65481071399682_2_alg».proof.Proof.Gen.KernelIdeal.Frame
import proofs.«134240_j65481071399682_2_alg».proof.Proof.Gen.KernelIdeal.Value
import proofs.«134240_j65481071399682_2_alg».proof.Proof.Gen.ReferenceIdeal
import proofs.«134240_j65481071399682_2_alg».proof.Proof.Gen.ReferenceIdeal.Run
import proofs.«134240_j65481071399682_2_alg».proof.Proof.Gen.ReferenceIdeal.Read
import proofs.«134240_j65481071399682_2_alg».proof.Proof.Gen.Pre_finite_inputs
import proofs.«134240_j65481071399682_2_alg».proof.Proof.RbfRun
import proofs.«134240_j65481071399682_2_alg».proof.Proof.RbfReference
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does its reading on the extended reals. -/
theorem frame_kernelIdeal [Cert.KernelIdeal.Facts] [Cert.Pre_finite_inputs.Facts] : Cert.frame_KernelIdeal :=
  fun m ρ _ => Cert.KernelIdeal.Gen.frame m ρ

/-- The reference runs and leaves its arguments unchanged: its run with the result forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories agreeing on x and y both programs end with the kernel matrix of x and y in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Rbf.rbf (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.Rbf.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Rbf.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
